-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x32 : Shape := ⟨2, ![1250000, 32]⟩
abbrev S64x64 : Shape := ⟨2, ![64, 64]⟩
abbrev S64 : Shape := ⟨1, ![64]⟩
abbrev S64x32 : Shape := ⟨2, ![64, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x32 : S_.BroadcastsInDim S1250000x32 (![] : Fin 0 → Fin S1250000x32.rank)
  reducesTo_S1250000x32_S_d0_1 : S1250000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg5 : FVec F S64x32 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1250000 32) (main_arg2 : FVec F S1250000x32 .f32) (main_arg3 : FVec F S64x64 .f32) (main_arg4 : FVec F S64 .f32) (main_arg5 : FVec F S64x32 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x32 .f32 := Host.absf main_arg2
  let main_cst_0 : FVec F S_ .f32 := constant S_ .f32 0x7F800000#32
  let main_v5 : FVec F S1250000x32 .f32 := broadcastInDim S1250000x32 ![] bcast_S_S1250000x32 main_cst_0
  let main_v6 : IVec S1250000x32 1 := cmpf .olt main_v4 main_v5
  let main_c_1 : IVec S_ 1 := constantI S_ 1 1#1
  let main_v7 : IVec S_ 1 := (fun x v => Host.reduce IntOp.andi x v reducesTo_S1250000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1250000 : Shape := ⟨2, ![2, 1250000]⟩
abbrev S1250000x32 : Shape := ⟨2, ![1250000, 32]⟩
abbrev S64x64 : Shape := ⟨2, ![64, 64]⟩
abbrev S64 : Shape := ⟨1, ![64]⟩
abbrev S64x32 : Shape := ⟨2, ![64, 32]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S10000x64 : Shape := ⟨2, ![10000, 64]⟩
abbrev S10000x32 : Shape := ⟨2, ![10000, 32]⟩
abbrev S32x64 : Shape := ⟨2, ![32, 64]⟩
abbrev S1x64 : Shape := ⟨2, ![1, 64]⟩
abbrev S100000 : Shape := ⟨1, ![100000]⟩
abbrev S100000x1 : Shape := ⟨2, ![100000, 1]⟩
abbrev S10000x1 : Shape := ⟨2, ![10000, 1]⟩

abbrev nBuf : Space → Nat
  | .hbm => 36
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x32, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1250000x64, .f32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x32, .f32⟩
  | .local _ .vmem, ⟨3, _⟩ => ⟨S10000x32, .f32⟩
  | .local _ .vmem, ⟨4, _⟩ => ⟨S64x32, .f32⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S64x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  gather_S100000x64_S1250000x1_S1250000x64_1_0_n_n_0_1_164_wf : GatherDims.WF S100000x64 S1250000x1 S1250000x64 [1] [0] [] [0] [] 1 ![1, 64]
  dot_S10000x32_S32x64_S10000x64_1_0_0_1_n_n_wf : DotDims.WF S10000x32 S32x64 S10000x64 [1] [0] [0] [1] [] []
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S1250000x32.size a
  hwx0_1 : ∀ i : grid0.Coords, EltTy.bits .f32 = 32 ∨ (Rect.block (s := S1250000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S1250000x64.size a
  hwx0_4 : ∀ i : grid0.Coords, EltTy.bits .f32 = 32 ∨ (Rect.block (s := S1250000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x32 : Shape := ⟨2, ![1250000, 32]⟩
abbrev S64x64 : Shape := ⟨2, ![64, 64]⟩
abbrev S64 : Shape := ⟨1, ![64]⟩
abbrev S64x32 : Shape := ⟨2, ![64, 32]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S32x64 : Shape := ⟨2, ![32, 64]⟩
abbrev S1x64 : Shape := ⟨2, ![1, 64]⟩
abbrev S100000 : Shape := ⟨1, ![100000]⟩
abbrev S100000x1 : Shape := ⟨2, ![100000, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x32, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1250000x64, .f32⟩
  | .hbm, ⟨20, _⟩ => ⟨S32x64, .f32⟩
  | .hbm, ⟨21, _⟩ => ⟨S1250000x64, .f32⟩
  | .hbm, ⟨22, _⟩ => ⟨S1x64, .f32⟩
  | .hbm, ⟨23, _⟩ => ⟨S1250000x64, .f32⟩
  | .hbm, ⟨24, _⟩ => ⟨S1250000x64, .f32⟩
  | .hbm, ⟨25, _⟩ => ⟨S1250000x64, .f32⟩
  | .hbm, ⟨26, _⟩ => ⟨S_, .f32⟩
  | .hbm, ⟨27, _⟩ => ⟨S100000x64, .f32⟩
  | .hbm, ⟨28, _⟩ => ⟨S1250000x1, .i32⟩
  | .hbm, ⟨29, _⟩ => ⟨S100000x64, .f32⟩
  | .hbm, ⟨30, _⟩ => ⟨S_, .f32⟩
  | .hbm, ⟨31, _⟩ => ⟨S1250000, .f32⟩
  | .hbm, ⟨32, _⟩ => ⟨S_, .f32⟩
  | .hbm, ⟨33, _⟩ => ⟨S100000, .f32⟩
  | .hbm, ⟨34, _⟩ => ⟨S1250000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S64x32_S32x64_1_0 : S64x32.Transposes [1, 0] S32x64
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  dot_S1250000x32_S32x64_S1250000x64_1_0_0_1_n_n_wf : DotDims.WF S1250000x32 S32x64 S1250000x64 [1] [0] [0] [1] [] []
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x32_S32x64_S1250000x64_1_0_0_1_n_n : DotDims S1250000x32 S32x64 S1250000x64 where
  lhsContracting := [1]
  rhsContracting := [0]
  lhsNonContracting := [0]
  rhsNonContracting := [1]
  lhsBatch := []
  rhsBatch := []
  wf := dot_S1250000x32_S32x64_S1250000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibRowOps.lean ====
/-
  ROW AND COLUMN SPREADS OF SMALL ARRAYS, AND THE SWAP OF A MATRIX'S AXES, READ AT AN INDEX.

  A bias vector `[c]` added to every row of an `[a, c]` array is first recast to `[1, c]` and then spread over
  the rows; the device spells this with a shape cast and a broadcast, the host with two `broadcast_in_dim`s. Either
  way the entry at `(p, q)` is the vector's entry `q`. A column `[a, 1]` spread over the columns of `[a, b]` by the
  host reads the column's entry of row `p`. The transpose with permutation `[1, 0]` of an `[a, b]` array reads, at
  `(p, q)`, the entry `(q, p)`.
-/
import Idealize.ShloMosaic.Lib.ValueIdx
import Idealize.ShloMosaic.Lib.Pipeline.Value

noncomputable section

namespace Cert.RowOps

open Idealize.ShloMosaic Idealize.ShloMosaic.ValueIdx

/-- The transpose `[a, b] → [b, a]` reads, at `(p, q)`, the entry `(q, p)`. -/
theorem transpose_swap_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun d => match d with
    | ⟨0, _⟩ => rfl
    | ⟨1, _⟩ => rfl

/-- On the device: a vector `[c]` recast to `[1, c]` and spread over the rows of `[a, c]` reads, at `(p, q)`, its entry `q`. -/
theorem rowSpread_apply {α : Type} {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (p : Fin a) (q : Fin c) :
    broadcastTo ⟨2, ![a, c]⟩ (shapeCast ⟨2, ![1, c]⟩ v h1) h2 (ix2 p q) = v (ix1 q) := by
  rw [broadcastTo_apply (shapeCast ⟨2, ![1, c]⟩ v h1) h2 (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  refine (shapeCast_addUnit_apply ![c] v h1 (ix2 (0 : Fin 1) q)).trans (congrArg v ?_)
  funext d
  match d with
  | ⟨0, _⟩ => rfl

/-- On the host: a vector `[c]` placed as the one row of `[1, c]` and spread over the rows of `[a, c]` reads, at
    `(p, q)`, its entry `q`. -/
theorem hostRowSpread_apply {α : Type} {a c : ℕ} (v : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (p : Fin a) (q : Fin c) :
    broadcastInDim ⟨2, ![a, c]⟩ ![0, 1] h2 (broadcastInDim ⟨2, ![1, c]⟩ ![1] h1 v) (ix2 p q) = v (ix1 q) := by
  rw [broadcastInDim_apply ![0, 1] h2 _ (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  exact broadcastInDim_apply ![1] h1 v (ix2 (0 : Fin 1) q) (ix1 q) (fun d => match d with
    | ⟨0, _⟩ => by
        show q.val = if c = 1 then 0 else q.val
        split
        · have := q.isLt; omega
        · rfl)

/-- On the host: a column `[a, 1]` spread over the columns of `[a, b]` reads, at `(p, q)`, the column's entry of row `p`. -/
theorem hostColSpread_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) (fun d => match d with
    | ⟨0, _⟩ => by
        show p.val = if a = 1 then 0 else p.val
        split
        · have := p.isLt; omega
        · rfl
    | ⟨1, _⟩ => by show (0 : ℕ) = if (1 : ℕ) = 1 then 0 else q.val; rw [if_pos rfl])

end Cert.RowOps

end
-- ==== Proof.Layers.lean ====
/-
  THE TWO DENSE STAGES OF ONE ROUND OF MESSAGE PASSING, ON THE EXTENDED REALS.

  An edge `e` carries the message `gx(e, ·) + W_e · ea(e, ·) + b_e`: the (already gathered) features of its source
  node plus a linear image of the edge's own attributes. A node `n` whose incoming messages were summed into
  `agg(n, ·)` and whose clamped in-degree is `deg(n)` ends at `W · (agg(n, ·) / deg(n)) + b`. Both are stated entry by
  entry, with the weight matrices stored output-major (`[out, in]`), so entry `(·, q)` contracts a row with row `q`
  of the weights.

  Below the definitions: that the device's spelling of each stage on a block of rows (cast to the narrow float
  format and back being the identity on the extended reals, the weights transposed and fed to the matrix unit with
  a zero accumulator, the bias recast to one row and spread) and the host's spelling on the whole arrays (a
  transpose, a dot product, two spreads of the bias) compute these entries. The only law used beyond reading each
  operation at an index is the associativity of addition, which holds on all of the extended reals.
-/
import Idealize.ShloMosaic.PureOps.Ideal.Laws
import Idealize.ShloMosaic.Lib.ValueIdx
import Idealize.ShloMosaic.Lib.Pipeline.Value
import proofs.«106799_j7275674599909_2_alg».proof.Proof.LibMatOps
import proofs.«106799_j7275674599909_2_alg».proof.Proof.LibRowOps

noncomputable section

open scoped BigOperators

namespace Cert.Layers

open Idealize.ShloMosaic Idealize.ShloMosaic.ValueIdx Cert.MatOps Cert.RowOps

/-! ## The two stages, entry by entry -/

section
variable {E D K : ℕ}

/-- The message of edge `p`, feature `q`. -/
def edgeMessageAt (gx : (⟨2, ![E, D]⟩ : Shape).Idx → EReal) (ea : (⟨2, ![E, K]⟩ : Shape).Idx → EReal)
    (ew : (⟨2, ![D, K]⟩ : Shape).Idx → EReal) (eb : (⟨1, ![D]⟩ : Shape).Idx → EReal) (p : Fin E) (q : Fin D) : EReal :=
  gx (ix2 p q) + ∑ k : Fin K, ea (ix2 p k) * ew (ix2 q k) + eb (ix1 q)

/-- All messages, as an `[E, D]` array. -/
def edgeMessage (gx : (⟨2, ![E, D]⟩ : Shape).Idx → EReal) (ea : (⟨2, ![E, K]⟩ : Shape).Idx → EReal)
    (ew : (⟨2, ![D, K]⟩ : Shape).Idx → EReal) (eb : (⟨1, ![D]⟩ : Shape).Idx → EReal) :
    (⟨2, ![E, D]⟩ : Shape).Idx → EReal :=
  fun i => edgeMessageAt gx ea ew eb (i 0) (i 1)

/-- Node `p`'s output feature `q`: the degree-normalised aggregate through the final linear map. -/
def normLinearAt (agg : (⟨2, ![E, K]⟩ : Shape).Idx → EReal) (deg : (⟨2, ![E, 1]⟩ : Shape).Idx → EReal)
    (lw : (⟨2, ![D, K]⟩ : Shape).Idx → EReal) (lb : (⟨1, ![D]⟩ : Shape).Idx → EReal) (p : Fin E) (q : Fin D) : EReal :=
  ∑ k : Fin K, Ideal.div (agg (ix2 p k)) (deg (ix2 p (0 : Fin 1))) * lw (ix2 q k) + lb (ix1 q)

/-- All outputs, as an `[E, D]` array. -/
def normLinear (agg : (⟨2, ![E, K]⟩ : Shape).Idx → EReal) (deg : (⟨2, ![E, 1]⟩ : Shape).Idx → EReal)
    (lw : (⟨2, ![D, K]⟩ : Shape).Idx → EReal) (lb : (⟨1, ![D]⟩ : Shape).Idx → EReal) :
    (⟨2, ![E, D]⟩ : Shape).Idx → EReal :=
  fun i => normLinearAt agg deg lw lb (i 0) (i 1)

end

/-! ## The device's spelling on a block of `B` rows -/

section
variable {B D K : ℕ} (wf : DotDims.WF ⟨2, ![B, K]⟩ ⟨2, ![K, D]⟩ ⟨2, ![B, D]⟩ [1] [0] [0] [1] [] [])

/-- The edge-message body: the attribute block and the weights through the narrow format, the weights transposed,
    the matrix unit from zero, the gathered block added on the left and the spread bias on the right. -/
theorem device_edgeMessage (x0 : FVec Ideal ⟨2, ![B, K]⟩ .f32) (x2 : FVec Ideal ⟨2, ![D, K]⟩ .f32)
    (x6 : FVec Ideal ⟨2, ![B, D]⟩ .f32) (x9 : FVec Ideal ⟨1, ![D]⟩ .f32)
    (hb : FTy.bits .bf16 < FTy.bits .f32)
    (ht : (⟨2, ![D, K]⟩ : Shape).Transposes [1, 0] ⟨2, ![K, D]⟩)
    (hsc : (⟨2, ![B, D]⟩ : Shape).ShapeCasts ⟨2, ![B, D]⟩)
    (h1 : (⟨1, ![D]⟩ : Shape).ShapeCasts ⟨2, ![1, D]⟩) (h2 : (⟨2, ![1, D]⟩ : Shape).Broadcasts ⟨2, ![B, D]⟩)
    (p : Fin B) (q : Fin D) :
    addf (addf (shapeCast ⟨2, ![B, D]⟩ x6 hsc)
        (matmul (plainDot B K D wf) none (truncf .bf16 x0 hb) (transpose ⟨2, ![K, D]⟩ [1, 0] (truncf .bf16 x2 hb) ht)
          (constant ⟨2, ![B, D]⟩ .f32 0x00000000#32)))
      (broadcastTo ⟨2, ![B, D]⟩ (shapeCast ⟨2, ![1, D]⟩ x9 h1) h2) (ix2 p q)
      = x6 (ix2 p q) + ∑ k : Fin K, x0 (ix2 p k) * x2 (ix2 q k) + x9 (ix1 q) := by
  rw [addf_apply, addf_apply, shapeCast_self, rowSpread_apply]
  refine congrArg (· + x9 (ix1 q)) (congrArg (x6 (ix2 p q) + ·) ?_)
  refine (matmul_plain_apply wf none _ _ p q).trans (Finset.sum_congr rfl fun k _ => ?_)
  rw [transpose_swap_apply]
  rfl

/-- The final-linear body: the aggregate block divided by the degree column spread over the features, through the
    narrow format into the matrix unit against the transposed weights, the spread bias added. -/
theorem device_normLinear (x0 : FVec Ideal ⟨2, ![B, K]⟩ .f32) (x2 : FVec Ideal ⟨2, ![B, 1]⟩ .f32)
    (x7 : FVec Ideal ⟨2, ![D, K]⟩ .f32) (x11 : FVec Ideal ⟨1, ![D]⟩ .f32)
    (hb : FTy.bits .bf16 < FTy.bits .f32)
    (ht : (⟨2, ![D, K]⟩ : Shape).Transposes [1, 0] ⟨2, ![K, D]⟩)
    (hsc0 : (⟨2, ![B, K]⟩ : Shape).ShapeCasts ⟨2, ![B, K]⟩) (hsc2 : (⟨2, ![B, 1]⟩ : Shape).ShapeCasts ⟨2, ![B, 1]⟩)
    (hcol : (⟨2, ![B, 1]⟩ : Shape).Broadcasts ⟨2, ![B, K]⟩)
    (h1 : (⟨1, ![D]⟩ : Shape).ShapeCasts ⟨2, ![1, D]⟩) (h2 : (⟨2, ![1, D]⟩ : Shape).Broadcasts ⟨2, ![B, D]⟩)
    (p : Fin B) (q : Fin D) :
    addf (matmul (plainDot B K D wf) none
          (truncf .bf16 (divf (shapeCast ⟨2, ![B, K]⟩ x0 hsc0) (broadcastTo ⟨2, ![B, K]⟩ (shapeCast ⟨2, ![B, 1]⟩ x2 hsc2) hcol)) hb)
          (transpose ⟨2, ![K, D]⟩ [1, 0] (truncf .bf16 x7 hb) ht) (constant ⟨2, ![B, D]⟩ .f32 0x00000000#32))
      (broadcastTo ⟨2, ![B, D]⟩ (shapeCast ⟨2, ![1, D]⟩ x11 h1) h2) (ix2 p q)
      = ∑ k : Fin K, Ideal.div (x0 (ix2 p k)) (x2 (ix2 p (0 : Fin 1))) * x7 (ix2 q k) + x11 (ix1 q) := by
  rw [addf_apply, rowSpread_apply, shapeCast_self, shapeCast_self]
  refine congrArg (· + x11 (ix1 q)) ?_
  refine (matmul_plain_apply wf none _ _ p q).trans (Finset.sum_congr rfl fun k _ => ?_)
  rw [transpose_swap_apply]
  show Ideal.div (x0 (ix2 p k)) (broadcastTo ⟨2, ![B, K]⟩ x2 hcol (ix2 p k)) * x7 (ix2 q k) = _
  rw [broadcastTo_a1_ab_apply]

end

/-! ## The host's spelling on the whole arrays -/

section
variable {E D K : ℕ} (wf : DotDims.WF ⟨2, ![E, K]⟩ ⟨2, ![K, D]⟩ ⟨2, ![E, D]⟩ [1] [0] [0] [1] [] [])

/-- The host's messages: the gathered features plus (the attributes times the transposed weights, plus the spread
    bias) — the same entries, the sum bracketed the other way. -/
theorem host_edgeMessage (gx : FVec Ideal ⟨2, ![E, D]⟩ .f32) (ea : FVec Ideal ⟨2, ![E, K]⟩ .f32)
    (ew : FVec Ideal ⟨2, ![D, K]⟩ .f32) (eb : FVec Ideal ⟨1, ![D]⟩ .f32)
    (ht : (⟨2, ![D, K]⟩ : Shape).Transposes [1, 0] ⟨2, ![K, D]⟩)
    (h1 : (⟨1, ![D]⟩ : Shape).BroadcastsInDim ⟨2, ![1, D]⟩ ![1])
    (h2 : (⟨2, ![1, D]⟩ : Shape).BroadcastsInDim ⟨2, ![E, D]⟩ ![0, 1]) :
    addf gx (addf (Host.dotGeneral (plainDot E K D wf) none ea (transpose ⟨2, ![K, D]⟩ [1, 0] ew ht))
        (broadcastInDim ⟨2, ![E, D]⟩ ![0, 1] h2 (broadcastInDim ⟨2, ![1, D]⟩ ![1] h1 eb)))
      = edgeMessage gx ea ew eb := by
  funext i
  obtain ⟨p, q, rfl⟩ : ∃ (p : Fin E) (q : Fin D), i = ix2 p q := ⟨i 0, i 1, eq_ix2 i⟩
  rw [addf_apply, addf_apply, hostRowSpread_apply]
  show gx (ix2 p q) + (_ + eb (ix1 q)) = gx (ix2 p q) + ∑ k : Fin K, ea (ix2 p k) * ew (ix2 q k) + eb (ix1 q)
  rw [← add_assoc]
  refine congrArg (· + eb (ix1 q)) (congrArg (gx (ix2 p q) + ·) ?_)
  refine (dotGeneral_plain_apply wf none _ ea _ p q).trans (Finset.sum_congr rfl fun k _ => ?_)
  rw [transpose_swap_apply]

/-- The host's final stage: the aggregate divided by the degree column spread over the features, times the
    transposed weights, plus the spread bias. -/
theorem host_normLinear (agg : FVec Ideal ⟨2, ![E, K]⟩ .f32) (deg : FVec Ideal ⟨2, ![E, 1]⟩ .f32)
    (lw : FVec Ideal ⟨2, ![D, K]⟩ .f32) (lb : FVec Ideal ⟨1, ![D]⟩ .f32)
    (hcol : (⟨2, ![E, 1]⟩ : Shape).BroadcastsInDim ⟨2, ![E, K]⟩ ![0, 1])
    (ht : (⟨2, ![D, K]⟩ : Shape).Transposes [1, 0] ⟨2, ![K, D]⟩)
    (h1 : (⟨1, ![D]⟩ : Shape).BroadcastsInDim ⟨2, ![1, D]⟩ ![1])
    (h2 : (⟨2, ![1, D]⟩ : Shape).BroadcastsInDim ⟨2, ![E, D]⟩ ![0, 1]) :
    addf (Host.dotGeneral (plainDot E K D wf) none (Host.divf agg (broadcastInDim ⟨2, ![E, K]⟩ ![0, 1] hcol deg))
          (transpose ⟨2, ![K, D]⟩ [1, 0] lw ht))
        (broadcastInDim ⟨2, ![E, D]⟩ ![0, 1] h2 (broadcastInDim ⟨2, ![1, D]⟩ ![1] h1 lb))
      = normLinear agg deg lw lb := by
  funext i
  obtain ⟨p, q, rfl⟩ : ∃ (p : Fin E) (q : Fin D), i = ix2 p q := ⟨i 0, i 1, eq_ix2 i⟩
  rw [addf_apply, hostRowSpread_apply]
  show _ + lb (ix1 q) = ∑ k : Fin K, Ideal.div (agg (ix2 p k)) (deg (ix2 p (0 : Fin 1))) * lw (ix2 q k) + lb (ix1 q)
  refine congrArg (· + lb (ix1 q)) ?_
  refine (dotGeneral_plain_apply wf none _ _ _ p q).trans (Finset.sum_congr rfl fun k _ => ?_)
  rw [transpose_swap_apply]
  show Ideal.div (agg (ix2 p k)) (broadcastInDim ⟨2, ![E, K]⟩ ![0, 1] hcol deg (ix2 p k)) * lw (ix2 q k) = _
  rw [hostColSpread_apply]

end

end Cert.Layers

end
-- ==== Proof.Region0.lean ====
/-
  THE FIRST DENSE STAGE ON THE DEVICE: what the edge-message call leaves in its output array.

  The call walks the 1,250,000 edges in 125 blocks of 10,000 rows. At block `t` it sees rows
  `10000·t … 10000·t + 9999` of the gathered features and of the edge attributes, the whole weight matrix and the
  whole bias, and writes rows `10000·t …` of the output. Row `r` of a block is row `10000·t + r` of the arrays, the
  body's entry `(r, q)` is the message of that edge, and the 125 row blocks tile the output: so the output array
  ends holding every edge's message, whatever the arrays held when the call was entered.
-/
import proofs.«106799_j7275674599909_2_alg».proof.Proof.Gen.KernelIdeal.Frame
import proofs.«106799_j7275674599909_2_alg».proof.Proof.Layers
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, feature `q` of the block. -/
theorem pay0_apply (x0 : Vec Ideal S10000x32 .f32) (x2 : Vec Ideal S64x32 .f32) (x6 : Vec Ideal S10000x64 .f32)
    (x9 : Vec Ideal S64 .f32) (p : Fin 10000) (q : Fin 64) :
    k0_pay1 x0 x2 x6 x9 (ix2 p q) = x6 (ix2 p q) + ∑ k : Fin 32, x0 (ix2 p k) * x2 (ix2 q k) + x9 (ix1 q) := by
  unfold k0_pay1
  exact Cert.Layers.device_edgeMessage (B := 10000) (D := 64) (K := 32) dot_S10000x32_S32x64_S10000x64_1_0_0_1_n_n.wf
    x0 x2 x6 x9 bitsLt_bf16_f32 transposes_S64x32_p1_0_S32x64 shapeCasts_S10000x64_S10000x64 shapeCasts_S64_S1x64
    broadcasts_S1x64_S10000x64 p q

/-- One block against the arrays: if the loaded blocks are rows `10000·r + ·` of the gathered features and of the
    attributes, and the whole weights and bias, then the body's entry at `j` is the message at the array index `i`
    that `j` stands for. -/
theorem edge_point (GX : S1250000x64.Idx → EReal) (EA : S1250000x32.Idx → EReal) (EW : S64x32.Idx → EReal)
    (EB : S64.Idx → EReal) (x0 : Vec Ideal S10000x32 .f32) (x2 : Vec Ideal S64x32 .f32) (x6 : Vec Ideal S10000x64 .f32)
    (x9 : Vec Ideal S64 .f32) (r : ℕ)
    (h0 : ∀ (y : S10000x32.Idx) (i : S1250000x32.Idx), (i 0).val = r * 10000 + (y 0).val → (i 1).val = (y 1).val → x0 y = EA i)
    (h2 : x2 = EW) (h9 : x9 = EB)
    (h6 : ∀ (y : S10000x64.Idx) (i : S1250000x64.Idx), (i 0).val = r * 10000 + (y 0).val → (i 1).val = (y 1).val → x6 y = GX i)
    (j : S10000x64.Idx) (i : S1250000x64.Idx) (hi0 : (i 0).val = r * 10000 + (j 0).val) (hi1 : (i 1).val = (j 1).val) :
    k0_pay1 x0 x2 x6 x9 j = Cert.Layers.edgeMessage GX EA EW EB i := by
  obtain ⟨p, q, rfl⟩ : ∃ (p : Fin 10000) (q : Fin 64), j = ix2 p q := ⟨j 0, j 1, eq_ix2 j⟩
  obtain ⟨P, Q, rfl⟩ : ∃ (P : Fin 1250000) (Q : Fin 64), i = ix2 P Q := ⟨i 0, i 1, eq_ix2 i⟩
  obtain rfl : Q = q := Fin.ext hi1
  rw [pay0_apply]
  show _ = GX (ix2 P Q) + ∑ k : Fin 32, EA (ix2 P k) * EW (ix2 Q k) + EB (ix1 Q)
  rw [h6 (ix2 p Q) (ix2 P Q) hi0 rfl, h2, h9]
  refine congrArg (· + EB (ix1 Q)) (congrArg (GX (ix2 P Q) + ·) (Finset.sum_congr rfl fun k _ => ?_))
  rw [h0 (ix2 p k) (ix2 P k) hi0 rfl]

section
variable (V : (c : Dev nD) → (b : Ref sig .tc) → Buf (Elt Ideal) ((c : Thread nD τ).loc b))

/-- The printed index maps over the 125 points: the row-blocked windows sit at block row `t`, the weights and the
    bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Block `t` of the gathered features is rows `10000·t + ·` of the array. -/
theorem iblk0_0 (c : Dev nD) (t : Fin cfg0.N) (y : S10000x64.Idx) (i : S1250000x64.Idx)
    (h0 : (i 0).val = t.val * 10000 + (y 0).val) (h1 : (i 1).val = (y 1).val) :
    (iblk0 V c 0 t : Vec Ideal S10000x64 .f32) y = (V c main_v10 : S1250000x64.Idx → EReal) i := by
  obtain ⟨e0, e1, -⟩ := idx0 t
  unfold iblk0
  show (V c main_v10 : S1250000x64.Idx → EReal) (((cfg0.win 0).blk t).view.emb y) = _
  refine congrArg (V c main_v10 : S1250000x64.Idx → EReal) ?_
  funext a
  apply Fin.ext
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- Block `t` of the attributes is rows `10000·t + ·` of the array. -/
theorem iblk0_1 (c : Dev nD) (t : Fin cfg0.N) (y : S10000x32.Idx) (i : S1250000x32.Idx)
    (h0 : (i 0).val = t.val * 10000 + (y 0).val) (h1 : (i 1).val = (y 1).val) :
    (iblk0 V c 1 t : Vec Ideal S10000x32 .f32) y = (V c main_arg2 : S1250000x32.Idx → EReal) i := by
  obtain ⟨-, -, e0, e1, -⟩ := idx0 t
  unfold iblk0
  show (V c main_arg2 : S1250000x32.Idx → EReal) (((cfg0.win 1).blk t).view.emb y) = _
  refine congrArg (V c main_arg2 : S1250000x32.Idx → EReal) ?_
  funext a
  apply Fin.ext
  match a with
  | ⟨0, _⟩ => show win0_1.index t (0 : Fin 2) * 10000 + 1 * (y 0).val = (i 0).val; omega
  | ⟨1, _⟩ => show win0_1.index t (1 : Fin 2) * 32 + 1 * (y 1).val = (i 1).val; omega

/-- Every point sees the whole weight matrix. -/
theorem iblk0_2 (c : Dev nD) (t : Fin cfg0.N) :
    (iblk0 V c 2 t : Vec Ideal S64x32 .f32) = (V c main_arg5 : S64x32.Idx → EReal) := by
  obtain ⟨-, -, -, -, e0, e1, -⟩ := idx0 t
  funext y
  unfold iblk0
  show (V c main_arg5 : S64x32.Idx → EReal) (((cfg0.win 2).blk t).view.emb y) = _
  refine congrArg (V c main_arg5 : S64x32.Idx → EReal) ?_
  funext a
  apply Fin.ext
  match a with
  | ⟨0, _⟩ => show win0_2.index t (0 : Fin 2) * 64 + 1 * (y 0).val = (y 0).val; omega
  | ⟨1, _⟩ => show win0_2.index t (1 : Fin 2) * 32 + 1 * (y 1).val = (y 1).val; omega

/-- Every point sees the whole bias. -/
theorem iblk0_3 (c : Dev nD) (t : Fin cfg0.N) :
    (iblk0 V c 3 t : Vec Ideal S64 .f32) = (V c main_arg6 : S64.Idx → EReal) := by
  obtain ⟨-, -, -, -, -, -, e0, -⟩ := idx0 t
  funext y
  unfold iblk0
  show (V c main_arg6 : S64.Idx → EReal) (((cfg0.win 3).blk t).view.emb y) = _
  refine congrArg (V c main_arg6 : S64.Idx → EReal) ?_
  funext a
  apply Fin.ext
  match a with
  | ⟨0, _⟩ => show win0_3.index t (0 : Fin 1) * 64 + 1 * (y 0).val = (y 0).val; omega

/-- All messages, of the arrays as the call finds them. -/
abbrev messages (c : Dev nD) : S1250000x64.Idx → EReal :=
  Cert.Layers.edgeMessage (V c main_v10 : S1250000x64.Idx → EReal) (V c main_arg2 : S1250000x32.Idx → EReal)
    (V c main_arg5 : S64x32.Idx → EReal) (V c main_arg6 : S64.Idx → EReal)

/-- What point `t` writes back is block `t` of the messages. -/
theorem flushed0_eq (c : Dev nD) (t : Fin cfg0.N) :
    (dat0 V c).flushed 4 t = ((cfg0.win 4).blk t).view.read (Elt Ideal) (messages V c) := by
  show (cfg0.win 4).cut (grid0.coords t) ((dat0 V c).after 4 t) = _
  rw [after0_4]
  unfold out0_4
  rw [View.canon_unit_zero hz2]
  simp only [View.ld_unit_zero (S := S10000x64) hz2, View.ld_unit_zero (S := S10000x32) hz2,
    View.ld_unit_zero (S := S64x32) hz2, View.ld_unit_zero (S := S64) hz1]
  obtain ⟨-, -, -, -, -, -, -, e0, e1⟩ := idx0 t
  funext j
  show k0_pay1 (iblk0 V c 1 t) (iblk0 V c 2 t) (iblk0 V c 0 t) (iblk0 V c 3 t) j
    = messages V c (((cfg0.win 4).blk t).view.emb j)
  refine edge_point (V c main_v10 : S1250000x64.Idx → EReal) (V c main_arg2 : S1250000x32.Idx → EReal)
    (V c main_arg5 : S64x32.Idx → EReal) (V c main_arg6 : S64.Idx → EReal)
    (iblk0 V c 1 t) (iblk0 V c 2 t) (iblk0 V c 0 t) (iblk0 V c 3 t) t.val
    (iblk0_1 V c t) (iblk0_2 V c t) (iblk0_3 V c t) (iblk0_0 V c t) j (((cfg0.win 4).blk t).view.emb j) ?_ ?_
  · show win0_4.index t (0 : Fin 2) * 10000 + 1 * (j 0).val = t.val * 10000 + (j 0).val; omega
  · show win0_4.index t (1 : Fin 2) * 64 + 1 * (j 1).val = (j 1).val; omega

/-- An index of the output array is in point `t`'s block iff each coordinate is in the block's range. -/
theorem mem_blk0 (t : Fin cfg0.N) (i : S1250000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v11).slice (win0_4.rect t)).set ↔ _
  rw [View.set_slice_whole, Rect.mem_set_unit]
  exact Iff.rfl

/-- The 125 row blocks tile the output: row `r` lies in block `r / 10000`. -/
theorem cover0 (i : S1250000x64.Idx) : ∃ t : Fin cfg0.N, (cfg0.win 4).flush t = true ∧ i ∈ ((cfg0.win 4).blk t).view.set := by
  have hN : cfg0.N = 125 := N_0
  have hi0 : (i 0).val < 1250000 := (i 0).isLt
  have hi1 : (i 1).val < 64 := (i 1).isLt
  refine ⟨⟨(i 0).val / 10000, by omega⟩, flush0_4 _, ?_⟩
  rw [mem_blk0]
  obtain ⟨-, -, -, -, -, -, -, e0, e1⟩ := idx0 ⟨(i 0).val / 10000, by omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e1]; omega

/-- The output array after the call: every edge's message. -/
theorem final0 (c : Dev nD) : (dat0 V c).arrAt 4 cfg0.N = messages V c :=
  (dat0 V c).arrAt_eq_of_cover 4 (messages V c) (fun t _ => flushed0_eq V c t) (cover0)

end

end Cert.KernelIdeal.Hand

end
-- ==== Proof.Region1.lean ====
/-
  THE SECOND DENSE STAGE ON THE DEVICE: what the final-linear call leaves in its output array.

  The call walks the 100,000 nodes in 10 blocks of 10,000 rows. At block `t` it sees rows `10000·t …` of the
  aggregated messages and of the degree column, the whole weight matrix and the whole bias, and writes rows
  `10000·t …` of the output: entry `(r, q)` of the block is the normalised, linearly mapped feature `q` of node
  `10000·t + r`. The 10 row blocks tile the output.
-/
import proofs.«106799_j7275674599909_2_alg».proof.Proof.Gen.KernelIdeal.Frame
import proofs.«106799_j7275674599909_2_alg».proof.Proof.Layers
import proofs.«106799_j7275674599909_2_alg».proof.Proof.Region0
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The body's stored value at row `p`, feature `q` of the block. -/
theorem pay1_apply (x0 : Vec Ideal S10000x64 .f32) (x2 : Vec Ideal S10000x1 .f32) (x7 : Vec Ideal S64x64 .f32)
    (x11 : Vec Ideal S64 .f32) (p : Fin 10000) (q : Fin 64) :
    k1_pay1 x0 x2 x7 x11 (ix2 p q)
      = ∑ k : Fin 64, Ideal.div (x0 (ix2 p k)) (x2 (ix2 p (0 : Fin 1))) * x7 (ix2 q k) + x11 (ix1 q) := by
  unfold k1_pay1
  exact Cert.Layers.device_normLinear (B := 10000) (D := 64) (K := 64) dot_S10000x64_S64x64_S10000x64_1_0_0_1_n_n.wf
    x0 x2 x7 x11 bitsLt_bf16_f32 transposes_S64x64_p1_0_S64x64 shapeCasts_S10000x64_S10000x64 shapeCasts_S10000x1_S10000x1
    broadcasts_S10000x1_S10000x64 shapeCasts_S64_S1x64 broadcasts_S1x64_S10000x64 p q

/-- One block against the arrays: if the loaded blocks are rows `10000·r + ·` of the aggregate and of the degree
    column, and the whole weights and bias, then the body's entry at `j` is the output at the array index `i` that
    `j` stands for. -/
theorem node_point (AGG : S100000x64.Idx → EReal) (DEG : S100000x1.Idx → EReal) (LW : S64x64.Idx → EReal)
    (LB : S64.Idx → EReal) (x0 : Vec Ideal S10000x64 .f32) (x2 : Vec Ideal S10000x1 .f32) (x7 : Vec Ideal S64x64 .f32)
    (x11 : Vec Ideal S64 .f32) (r : ℕ)
    (h0 : ∀ (y : S10000x64.Idx) (i : S100000x64.Idx), (i 0).val = r * 10000 + (y 0).val → (i 1).val = (y 1).val → x0 y = AGG i)
    (h2 : ∀ (y : S10000x1.Idx) (i : S100000x1.Idx), (i 0).val = r * 10000 + (y 0).val → (i 1).val = (y 1).val → x2 y = DEG i)
    (h7 : x7 = LW) (h11 : x11 = LB)
    (j : S10000x64.Idx) (i : S100000x64.Idx) (hi0 : (i 0).val = r * 10000 + (j 0).val) (hi1 : (i 1).val = (j 1).val) :
    k1_pay1 x0 x2 x7 x11 j = Cert.Layers.normLinear AGG DEG LW LB i := by
  obtain ⟨p, q, rfl⟩ : ∃ (p : Fin 10000) (q : Fin 64), j = ix2 p q := ⟨j 0, j 1, eq_ix2 j⟩
  obtain ⟨P, Q, rfl⟩ : ∃ (P : Fin 100000) (Q : Fin 64), i = ix2 P Q := ⟨i 0, i 1, eq_ix2 i⟩
  obtain rfl : Q = q := Fin.ext hi1
  rw [pay1_apply]
  show _ = ∑ k : Fin 64, Ideal.div (AGG (ix2 P k)) (DEG (ix2 P (0 : Fin 1))) * LW (ix2 Q k) + LB (ix1 Q)
  rw [h7, h11, h2 (ix2 p (0 : Fin 1)) (ix2 P (0 : Fin 1)) hi0 rfl]
  refine congrArg (· + LB (ix1 Q)) (Finset.sum_congr rfl fun k _ => ?_)
  rw [h0 (ix2 p k) (ix2 P k) hi0 rfl]

section
variable (V : (c : Dev nD) → (b : Ref sig .tc) → Buf (Elt Ideal) ((c : Thread nD τ).loc b))

/-- The printed index maps over the 10 points: the row-blocked windows sit at block row `t`, the weights and the
    bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Block `t` of the aggregate is rows `10000·t + ·` of the array. -/
theorem iblk1_0 (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v14 : S100000x64.Idx → EReal) i := by
  obtain ⟨e0, e1, -⟩ := idx1 t
  unfold iblk1
  show (V c main_v14 : S100000x64.Idx → EReal) (((cfg1.win 0).blk t).view.emb y) = _
  refine congrArg (V c main_v14 : S100000x64.Idx → EReal) ?_
  funext a
  apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- Block `t` of the degree column is rows `10000·t + ·` of the array. -/
theorem iblk1_1 (c : Dev nD) (t : Fin cfg1.N) (y : S10000x1.Idx) (i : S100000x1.Idx)
    (h0 : (i 0).val = t.val * 10000 + (y 0).val) (h1 : (i 1).val = (y 1).val) :
    (iblk1 V c 1 t : Vec Ideal S10000x1 .f32) y = (V c main_v21 : S100000x1.Idx → EReal) i := by
  obtain ⟨-, -, e0, e1, -⟩ := idx1 t
  unfold iblk1
  show (V c main_v21 : S100000x1.Idx → EReal) (((cfg1.win 1).blk t).view.emb y) = _
  refine congrArg (V c main_v21 : S100000x1.Idx → EReal) ?_
  funext a
  apply Fin.ext
  match a with
  | ⟨0, _⟩ => show win1_1.index t (0 : Fin 2) * 10000 + 1 * (y 0).val = (i 0).val; omega
  | ⟨1, _⟩ => show win1_1.index t (1 : Fin 2) * 1 + 1 * (y 1).val = (i 1).val; omega

/-- Every point sees the whole weight matrix. -/
theorem iblk1_2 (c : Dev nD) (t : Fin cfg1.N) :
    (iblk1 V c 2 t : Vec Ideal S64x64 .f32) = (V c main_arg3 : S64x64.Idx → EReal) := by
  obtain ⟨-, -, -, -, e0, e1, -⟩ := idx1 t
  funext y
  unfold iblk1
  show (V c main_arg3 : S64x64.Idx → EReal) (((cfg1.win 2).blk t).view.emb y) = _
  refine congrArg (V c main_arg3 : S64x64.Idx → EReal) ?_
  funext a
  apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Every point sees the whole bias. -/
theorem iblk1_3 (c : Dev nD) (t : Fin cfg1.N) :
    (iblk1 V c 3 t : Vec Ideal S64 .f32) = (V c main_arg4 : S64.Idx → EReal) := by
  obtain ⟨-, -, -, -, -, -, e0, -⟩ := idx1 t
  funext y
  unfold iblk1
  show (V c main_arg4 : S64.Idx → EReal) (((cfg1.win 3).blk t).view.emb y) = _
  refine congrArg (V c main_arg4 : S64.Idx → EReal) ?_
  funext a
  apply Fin.ext
  match a with
  | ⟨0, _⟩ => show win1_3.index t (0 : Fin 1) * 64 + 1 * (y 0).val = (y 0).val; omega

/-- All node outputs, of the arrays as the call finds them. -/
abbrev outputs (c : Dev nD) : S100000x64.Idx → EReal :=
  Cert.Layers.normLinear (V c main_v14 : S100000x64.Idx → EReal) (V c main_v21 : S100000x1.Idx → EReal)
    (V c main_arg3 : S64x64.Idx → EReal) (V c main_arg4 : S64.Idx → EReal)

/-- What point `t` writes back is block `t` of the outputs. -/
theorem flushed1_eq (c : Dev nD) (t : Fin cfg1.N) :
    (dat1 V c).flushed 4 t = ((cfg1.win 4).blk t).view.read (Elt Ideal) (outputs V c) := by
  show (cfg1.win 4).cut (grid1.coords t) ((dat1 V c).after 4 t) = _
  rw [after1_4]
  unfold out1_4
  rw [View.canon_unit_zero hz2]
  simp only [View.ld_unit_zero (S := S10000x64) hz2, View.ld_unit_zero (S := S10000x1) hz2,
    View.ld_unit_zero (S := S64x64) hz2, View.ld_unit_zero (S := S64) hz1]
  obtain ⟨-, -, -, -, -, -, -, e0, e1⟩ := idx1 t
  funext j
  show k1_pay1 (iblk1 V c 0 t) (iblk1 V c 1 t) (iblk1 V c 2 t) (iblk1 V c 3 t) j
    = outputs V c (((cfg1.win 4).blk t).view.emb j)
  refine node_point (V c main_v14 : S100000x64.Idx → EReal) (V c main_v21 : S100000x1.Idx → EReal)
    (V c main_arg3 : S64x64.Idx → EReal) (V c main_arg4 : S64.Idx → EReal)
    (iblk1 V c 0 t) (iblk1 V c 1 t) (iblk1 V c 2 t) (iblk1 V c 3 t) t.val
    (iblk1_0 V c t) (iblk1_1 V c t) (iblk1_2 V c t) (iblk1_3 V c t) j (((cfg1.win 4).blk t).view.emb j) ?_ ?_
  · show win1_4.index t (0 : Fin 2) * 10000 + 1 * (j 0).val = t.val * 10000 + (j 0).val; omega
  · show win1_4.index t (1 : Fin 2) * 64 + 1 * (j 1).val = (j 1).val; omega

/-- An index of the output array is in point `t`'s block iff each coordinate is in the block's range. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v22).slice (win1_4.rect t)).set ↔ _
  rw [View.set_slice_whole, Rect.mem_set_unit]
  exact Iff.rfl

/-- The 10 row blocks tile the output: row `r` lies in block `r / 10000`. -/
theorem cover1 (i : S100000x64.Idx) : ∃ t : Fin cfg1.N, (cfg1.win 4).flush t = true ∧ i ∈ ((cfg1.win 4).blk t).view.set := by
  have hN : cfg1.N = 10 := N_1
  have hi0 : (i 0).val < 100000 := (i 0).isLt
  have hi1 : (i 1).val < 64 := (i 1).isLt
  refine ⟨⟨(i 0).val / 10000, by omega⟩, flush1_4 _, ?_⟩
  rw [mem_blk1]
  obtain ⟨-, -, -, -, -, -, -, e0, e1⟩ := idx1 ⟨(i 0).val / 10000, by omega⟩
  intro a
  match a with
  | ⟨0, _⟩ =>
    show win1_4.index _ (0 : Fin 2) * 10000 ≤ (i 0).val ∧ (i 0).val < win1_4.index _ (0 : Fin 2) * 10000 + 10000
    rw [e0]; show (i 0).val / 10000 * 10000 ≤ (i 0).val ∧ (i 0).val < (i 0).val / 10000 * 10000 + 10000; omega
  | ⟨1, _⟩ =>
    show win1_4.index _ (1 : Fin 2) * 64 ≤ (i 1).val ∧ (i 1).val < win1_4.index _ (1 : Fin 2) * 64 + 64
    rw [e1]; omega

/-- The output array after the call: every node's output. -/
theorem final1 (c : Dev nD) : (dat1 V c).arrAt 4 cfg1.N = outputs V c :=
  (dat1 V c).arrAt_eq_of_cover 4 (outputs V c) (fun t _ => flushed1_eq V c t) (cover1)

end

end Cert.KernelIdeal.Hand

end
-- ==== Proof.KernelRun.lean ====
/-
  THE DEVICE PROGRAM'S RESULT: the whole pipeline as one function of the seven argument arrays.

  The program runs in four stretches. The host gathers each edge's source-node features; the first call turns them
  into messages (`Region0`); the host sums the messages arriving at each node and counts them, clamping the count
  at 1; the second call normalises and applies the final linear map (`Region1`). The two calls' outputs are known
  as functions of what the calls find in memory; what they find is, buffer by buffer, the host operations' result on
  what the previous stretch left. Chaining the four gives the result array as `result` of the arguments.

  The gather and the two scatter-sums are never opened: the reference applies the very same operations to the very
  same index arrays, so they are carried along as they are.
-/
import proofs.«106799_j7275674599909_2_alg».proof.Proof.Gen.KernelIdeal.Frame
import proofs.«106799_j7275674599909_2_alg».proof.Proof.Layers
import proofs.«106799_j7275674599909_2_alg».proof.Proof.Region0
import proofs.«106799_j7275674599909_2_alg».proof.Proof.Region1
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

/-! ## The host's part, as functions of the arrays -/

/-- Each edge's destination node, as the column of scatter indices: row 1 of the edge list. -/
def dest (x1 : (⟨S2x1250000, .i32⟩ : BufTy).Contents (Elt Ideal)) : (⟨S1250000x1, .i32⟩ : BufTy).Contents (Elt Ideal) :=
  broadcastInDim S1250000x1 ![0] bcast_S1250000_S1250000x1_0
    (shapeCast S1250000 (extractStridedSlice S1x1250000 ![1, 0] x1 slices_S2x1250000_S1x1250000_1_0) shapeCasts_S1x1250000_S1250000)

/-- Each edge's source node (row 0 of the edge list), a negative index counted from the end. -/
def src (x1 : (⟨S2x1250000, .i32⟩ : BufTy).Contents (Elt Ideal)) : (⟨S1250000, .i32⟩ : BufTy).Contents (Elt Ideal) :=
  shapeCast S1250000 (extractStridedSlice S1x1250000 ![0, 0] x1 slices_S2x1250000_S1x1250000_0_0) shapeCasts_S1x1250000_S1250000

/-- The source nodes' features, edge by edge. -/
def sources (x0 : (⟨S100000x64, .f32⟩ : BufTy).Contents (Elt Ideal)) (x1 : (⟨S2x1250000, .i32⟩ : BufTy).Contents (Elt Ideal)) :
    (⟨S1250000x64, .f32⟩ : BufTy).Contents (Elt Ideal) :=
  Host.gather gather_S100000x64_S1250000x1_S1250000x64_1_0_n_n_0_1_164 x0
    (broadcastInDim S1250000x1 ![0] bcast_S1250000_S1250000x1_0
      (select (cmpi .slt (src x1) (broadcastInDim S1250000 ![] bcast_S_S1250000 (constantI S_ 32 0#32)))
        (addi (src x1) (broadcastInDim S1250000 ![] bcast_S_S1250000 (constantI S_ 32 100000#32))) (src x1)))

/-- The messages arriving at each node, summed. -/
def aggregate (x1 : (⟨S2x1250000, .i32⟩ : BufTy).Contents (Elt Ideal)) (msg : (⟨S1250000x64, .f32⟩ : BufTy).Contents (Elt Ideal)) :
    (⟨S100000x64, .f32⟩ : BufTy).Contents (Elt Ideal) :=
  Host.scatterAdd (F := Ideal) scatter_S100000x64_S1250000x1_S1250000x64_1_0_0_1
    (broadcastInDim S100000x64 ![] bcast_S_S100000x64 (constant (F := Ideal) S_ .f32 0x00000000#32)) (dest x1) msg

/-- Each node's in-degree, clamped below at 1, as a column. -/
def degrees (x1 : (⟨S2x1250000, .i32⟩ : BufTy).Contents (Elt Ideal)) : (⟨S100000x1, .f32⟩ : BufTy).Contents (Elt Ideal) :=
  broadcastInDim S100000x1 ![0] bcast_S100000_S100000x1_0
    (maximumf (F := Ideal)
      (Host.scatterAdd (F := Ideal) scatter_S100000_S1250000x1_S1250000_n_0_0_1
        (broadcastInDim S100000 ![] bcast_S_S100000 (constant (F := Ideal) S_ .f32 0x00000000#32)) (dest x1)
        (broadcastInDim S1250000 ![] bcast_S_S1250000 (constant (F := Ideal) S_ .f32 0x3F800000#32)))
      (broadcastInDim S100000 ![] bcast_S_S100000 (constant (F := Ideal) S_ .f32 0x3F800000#32)))

/-- The whole round: gather, message, aggregate, normalise, final linear map. -/
def result (x0 : (⟨S100000x64, .f32⟩ : BufTy).Contents (Elt Ideal)) (x1 : (⟨S2x1250000, .i32⟩ : BufTy).Contents (Elt Ideal))
    (x2 : (⟨S1250000x32, .f32⟩ : BufTy).Contents (Elt Ideal)) (x3 : (⟨S64x64, .f32⟩ : BufTy).Contents (Elt Ideal))
    (x4 : (⟨S64, .f32⟩ : BufTy).Contents (Elt Ideal)) (x5 : (⟨S64x32, .f32⟩ : BufTy).Contents (Elt Ideal))
    (x6 : (⟨S64, .f32⟩ : BufTy).Contents (Elt Ideal)) : (⟨S100000x64, .f32⟩ : BufTy).Contents (Elt Ideal) :=
  Cert.Layers.normLinear (aggregate x1 (Cert.Layers.edgeMessage (sources x0 x1) x2 x5 x6)) (degrees x1) x3 x4

variable (m : (ℓ : Loc nD τ sig) → Buf (Elt Ideal) ℓ) (ρ : Dev nD → PrngReg)

/-! ## What the first call finds -/

theorem V1_gx (c : Dev nD) : V1 m ρ c main_v10 = sources (m ((c : Thread nD τ).loc main_arg0)) (m ((c : Thread nD τ).loc main_arg1)) := by
  show StableHlo.after hostOps0 (W0 m ρ c) (Proc.devRef .tc main_v10) = _
  after_results
  rfl
theorem V1_ea (c : Dev nD) : V1 m ρ c main_arg2 = m ((c : Thread nD τ).loc main_arg2) := by
  show StableHlo.after hostOps0 (W0 m ρ c) (Proc.devRef .tc main_arg2) = _
  after_results
theorem V1_ew (c : Dev nD) : V1 m ρ c main_arg5 = m ((c : Thread nD τ).loc main_arg5) := by
  show StableHlo.after hostOps0 (W0 m ρ c) (Proc.devRef .tc main_arg5) = _
  after_results
theorem V1_eb (c : Dev nD) : V1 m ρ c main_arg6 = m ((c : Thread nD τ).loc main_arg6) := by
  show StableHlo.after hostOps0 (W0 m ρ c) (Proc.devRef .tc main_arg6) = _
  after_results
/-- The destination row of the edge list, as the host leaves it before the first call. -/
theorem W1_dst (c : Dev nD) : W1 m ρ c (Proc.devRef .tc main_v3)
    = shapeCast S1250000 (extractStridedSlice S1x1250000 ![1, 0] (m ((c : Thread nD τ).loc main_arg1)) slices_S2x1250000_S1x1250000_1_0) shapeCasts_S1x1250000_S1250000 := by
  show StableHlo.after hostOps0 (W0 m ρ c) (Proc.devRef .tc main_v3) = _
  after_results
  rfl
theorem W1_lw (c : Dev nD) : W1 m ρ c (Proc.devRef .tc main_arg3) = m ((c : Thread nD τ).loc main_arg3) := by
  show StableHlo.after hostOps0 (W0 m ρ c) (Proc.devRef .tc main_arg3) = _
  after_results
theorem W1_lb (c : Dev nD) : W1 m ρ c (Proc.devRef .tc main_arg4) = m ((c : Thread nD τ).loc main_arg4) := by
  show StableHlo.after hostOps0 (W0 m ρ c) (Proc.devRef .tc main_arg4) = _
  after_results

/-! ## What the first call leaves -/

/-- Its output array: the messages of the gathered features, the attributes, the edge weights and bias. -/
theorem W2_msg (c : Dev nD) : W2 m ρ c (Proc.devRef .tc main_v11)
    = Cert.Layers.edgeMessage (sources (m ((c : Thread nD τ).loc main_arg0)) (m ((c : Thread nD τ).loc main_arg1)))
        (m ((c : Thread nD τ).loc main_arg2)) (m ((c : Thread nD τ).loc main_arg5)) (m ((c : Thread nD τ).loc main_arg6)) := by
  refine (W2_arr m ρ c 4).trans ((final0 (V1 m ρ) c).trans ?_)
  show Cert.Layers.edgeMessage (V1 m ρ c main_v10) (V1 m ρ c main_arg2) (V1 m ρ c main_arg5) (V1 m ρ c main_arg6) = _
  rw [V1_gx m ρ c, V1_ea m ρ c, V1_ew m ρ c, V1_eb m ρ c]
theorem W2_dst (c : Dev nD) : W2 m ρ c (Proc.devRef .tc main_v3)
    = shapeCast S1250000 (extractStridedSlice S1x1250000 ![1, 0] (m ((c : Thread nD τ).loc main_arg1)) slices_S2x1250000_S1x1250000_1_0) shapeCasts_S1x1250000_S1250000 :=
  (W2_of_ne m ρ c main_v3 (by decide)).trans (W1_dst m ρ c)
theorem W2_lw (c : Dev nD) : W2 m ρ c (Proc.devRef .tc main_arg3) = m ((c : Thread nD τ).loc main_arg3) :=
  (W2_of_ne m ρ c main_arg3 (by decide)).trans (W1_lw m ρ c)
theorem W2_lb (c : Dev nD) : W2 m ρ c (Proc.devRef .tc main_arg4) = m ((c : Thread nD τ).loc main_arg4) :=
  (W2_of_ne m ρ c main_arg4 (by decide)).trans (W1_lb m ρ c)

/-! ## What the second call finds -/

theorem V3_agg (c : Dev nD) : V3 m ρ c main_v14
    = aggregate (m ((c : Thread nD τ).loc main_arg1))
        (Cert.Layers.edgeMessage (sources (m ((c : Thread nD τ).loc main_arg0)) (m ((c : Thread nD τ).loc main_arg1)))
          (m ((c : Thread nD τ).loc main_arg2)) (m ((c : Thread nD τ).loc main_arg5)) (m ((c : Thread nD τ).loc main_arg6))) := by
  show StableHlo.after hostOps1 (W2 m ρ c) (Proc.devRef .tc main_v14) = _
  after_results
  rw [W2_msg m ρ c, W2_dst m ρ c]
  rfl
theorem V3_deg (c : Dev nD) : V3 m ρ c main_v21 = degrees (m ((c : Thread nD τ).loc main_arg1)) := by
  show StableHlo.after hostOps1 (W2 m ρ c) (Proc.devRef .tc main_v21) = _
  after_results
  rw [W2_dst m ρ c]
  rfl
theorem V3_lw (c : Dev nD) : V3 m ρ c main_arg3 = m ((c : Thread nD τ).loc main_arg3) := by
  show StableHlo.after hostOps1 (W2 m ρ c) (Proc.devRef .tc main_arg3) = _
  after_results
  exact W2_lw m ρ c
theorem V3_lb (c : Dev nD) : V3 m ρ c main_arg4 = m ((c : Thread nD τ).loc main_arg4) := by
  show StableHlo.after hostOps1 (W2 m ρ c) (Proc.devRef .tc main_arg4) = _
  after_results
  exact W2_lb m ρ c

/-! ## The result array -/

/-- After the second call the result array holds `result` of the arguments. -/
theorem W4_out (c : Dev nD) : W4 m ρ c (Proc.devRef .tc main_v22)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W4_arr m ρ c 4).trans ((final1 (V3 m ρ) c).trans ?_)
  show Cert.Layers.normLinear (V3 m ρ c main_v14) (V3 m ρ c main_v21) (V3 m ρ c main_arg3) (V3 m ρ c main_arg4) = _
  rw [V3_agg m ρ c, V3_deg m ρ c, V3_lw m ρ c, V3_lb m ρ c]
  rfl

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- The run: every weakly fair execution terminates, nothing faulting; the result array ends at what the last
    segment boundary holds for it, and the arguments end as launched. -/
theorem run_boundary : θ_run defs (onTc (τ := τ) (main (F := Ideal))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The run, read: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v22)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W4_out m ρ c), (h c).2⟩) (run_boundary m ρ)

end Cert.KernelIdeal.Hand

end
-- ==== Proof.RefValue.lean ====
/-
  THE REFERENCE'S TWO DENSE STAGES ARE THE SAME ENTRIES.

  The reference computes the messages as "gathered features + (attributes · Wₑᵀ + bₑ)" and the output as
  "(aggregate / degree) · Wᵀ + b", each on the whole arrays with a transposed weight matrix, a dot product and the
  bias spread over the rows. Entry by entry these are the message and the normalised linear image of `Layers`.
-/
import proofs.«106799_j7275674599909_2_alg».proof.Proof.Gen.ReferenceIdeal.Run
import proofs.«106799_j7275674599909_2_alg».proof.Proof.Layers

noncomputable section

namespace Cert.ReferenceIdeal.RefValue

open Cert.ReferenceIdeal Cert.ReferenceIdeal.Gen Idealize.ShloMosaic Idealize.ShloMosaic.TcCoe

/-- The reference's messages, for any gathered features. -/
theorem stage1 (gx : FVec Ideal S1250000x64 .f32) (ea : FVec Ideal S1250000x32 .f32)
    (ew : FVec Ideal S64x32 .f32) (eb : FVec Ideal S64 .f32) :
    addf (F := Ideal) gx (addf (Host.dotGeneral dot_S1250000x32_S32x64_S1250000x64_1_0_0_1_n_n none ea (transpose S32x64 [1, 0] ew transposes_S64x32_S32x64_1_0))
        (broadcastInDim S1250000x64 ![0, 1] bcast_S1x64_S1250000x64_0_1 (broadcastInDim S1x64 ![1] bcast_S64_S1x64_1 eb)))
      = Cert.Layers.edgeMessage gx ea ew eb :=
  Cert.Layers.host_edgeMessage (E := 1250000) (D := 64) (K := 32) dot_S1250000x32_S32x64_S1250000x64_1_0_0_1_n_n.wf
    gx ea ew eb transposes_S64x32_S32x64_1_0 bcast_S64_S1x64_1 bcast_S1x64_S1250000x64_0_1

/-- The reference's output, for any aggregate and any degree column. -/
theorem stage2 (agg : FVec Ideal S100000x64 .f32) (deg : FVec Ideal S100000x1 .f32)
    (lw : FVec Ideal S64x64 .f32) (lb : FVec Ideal S64 .f32) :
    addf (F := Ideal) (Host.dotGeneral dot_S100000x64_S64x64_S100000x64_1_0_0_1_n_n none
          (Host.divf agg (broadcastInDim S100000x64 ![0, 1] bcast_S100000x1_S100000x64_0_1 deg))
          (transpose S64x64 [1, 0] lw transposes_S64x64_S64x64_1_0))
        (broadcastInDim S100000x64 ![0, 1] bcast_S1x64_S100000x64_0_1 (broadcastInDim S1x64 ![1] bcast_S64_S1x64_1 lb))
      = Cert.Layers.normLinear agg deg lw lb :=
  Cert.Layers.host_normLinear (E := 100000) (D := 64) (K := 64) dot_S100000x64_S64x64_S100000x64_1_0_0_1_n_n.wf
    agg deg lw lb bcast_S100000x1_S100000x64_0_1 transposes_S64x64_S64x64_1_0 bcast_S64_S1x64_1 bcast_S1x64_S100000x64_0_1

end Cert.ReferenceIdeal.RefValue

end
-- ==== Proof.lean ====
/-
  One round of message passing on a graph of 100,000 nodes and 1,250,000 edges, device against reference.

  Both programs gather each edge's source-node features, form the edge's message (features plus a linear image of
  the edge's attributes plus a bias), sum the messages arriving at each node, divide by the node's in-degree clamped
  at 1, and apply a final linear map with bias. The device program runs the two dense stages as calls over row
  blocks, with the matrix unit fed through a narrower float format; on the extended reals a change of format is the
  identity, the matrix unit from a zero accumulator is the plain sum over the contracted axis, and the two programs
  differ only in how the three summands of a message are bracketed. Addition on the extended reals is associative
  without any finiteness, so the precondition is never opened. The gather and the two scatter-sums are the same
  operations on the same index arrays in both programs and are never opened either.

  `Layers` states the two dense stages entry by entry and reads both spellings of each at an index; `Region0` and
  `Region1` show that each call leaves its stage of what it finds, over all row blocks; `KernelRun` chains the four
  stretches of the device program into one function of the arguments; `RefValue` folds the reference's two stages.
  Here: the three runs with unchanged arguments, the trivial idealization ledger, and the equality of results.
-/
import proofs.«106799_j7275674599909_2_alg».proof.Defs
import proofs.«106799_j7275674599909_2_alg».proof.Proof.Gen.Kernel
import proofs.«106799_j7275674599909_2_alg».proof.Proof.Gen.Kernel.Frame
import proofs.«106799_j7275674599909_2_alg».proof.Proof.Gen.KernelIdeal
import proofs.«106799_j7275674599909_2_alg».proof.Proof.Gen.KernelIdeal.Frame
import proofs.«106799_j7275674599909_2_alg».proof.Proof.Gen.ReferenceIdeal
import proofs.«106799_j7275674599909_2_alg».proof.Proof.Gen.Pre_finite_inputs
import proofs.«106799_j7275674599909_2_alg».proof.Proof.Gen.ReferenceIdeal.Run
import proofs.«106799_j7275674599909_2_alg».proof.Proof.KernelRun
import proofs.«106799_j7275674599909_2_alg».proof.Proof.RefValue
import Idealize.ShloMosaic.Adequacy
import Idealize.ShloMosaic.Init

noncomputable section

namespace Cert.Proof

open Idealize.ShloMosaic Idealize.SL.Sem

/-- The device program as printed runs, its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the arguments both programs end with the same result array: the device's is the
    round's function of the arguments; the reference's two dense stages fold to the same entries, and what is left
    on the two sides is the same gather and the same scatter-sums of the same arrays. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6, Cert.ReferenceIdeal.RefValue.stage1, Cert.ReferenceIdeal.RefValue.stage2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
